-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x2048x4096 .f32) (main_arg1 : FVec F S4096x4096 .f32) (main_arg2 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩
abbrev S1x1 : Shape := ⟨2, ![1, 1]⟩
abbrev S4096x1 : Shape := ⟨2, ![4096, 1]⟩
abbrev S16384x4096 : Shape := ⟨2, ![16384, 4096]⟩
abbrev S1x4096 : Shape := ⟨2, ![1, 4096]⟩
abbrev S256x4096 : Shape := ⟨2, ![256, 4096]⟩
abbrev S256x1 : Shape := ⟨2, ![256, 1]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩

abbrev nBuf : Space → Nat
  | .hbm => 22
  | .vmem => 19
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S8x2048x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x1, .f32⟩
  | .hbm, ⟨9, _⟩ => ⟨S4096x4096, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S16384x4096, .f32⟩
  | .hbm, ⟨17, _⟩ => ⟨S1x4096, .f32⟩
  | .hbm, ⟨18, _⟩ => ⟨S16384x4096, .bf16⟩
  | .hbm, ⟨19, _⟩ => ⟨S4096x4096, .bf16⟩
  | .hbm, ⟨20, _⟩ => ⟨S16384x4096, .f32⟩
  | .hbm, ⟨21, _⟩ => ⟨S8x2048x4096, .f32⟩
  | .local _ .vmem, ⟨0, _⟩ => ⟨S256x4096, .f32⟩
  | .local _ .vmem, ⟨1, _⟩ => ⟨S256x4096, .f32⟩
  | .local _ .vmem, ⟨2, _⟩ => ⟨S1x1, .f32⟩
  | .local _ .vmem, ⟨3, _⟩ => ⟨S256x4096, .bf16⟩
  | .local _ .vmem, ⟨4, _⟩ => ⟨S256x4096, .bf16⟩
  | .local _ .vmem, ⟨5, _⟩ => ⟨S256x4096, .f32⟩
  | .local _ .vmem, ⟨6, _⟩ => ⟨S256x4096, .f32⟩
  | .local _ .vmem, ⟨7, _⟩ => ⟨S256x1, .f32⟩
  | .local _ .vmem, ⟨8, _⟩ => ⟨S256x1, .f32⟩
  | .local _ .vmem, ⟨9, _⟩ => ⟨S256x4096, .bf16⟩
  | .local _ .vmem, ⟨10, _⟩ => ⟨S256x4096, .bf16⟩
  | .local _ .vmem, ⟨11, _⟩ => ⟨S1024x4096, .bf16⟩
  | .local _ .vmem, ⟨12, _⟩ => ⟨S1024x4096, .bf16⟩
  | .local _ .vmem, ⟨13, _⟩ => ⟨S512x4096, .bf16⟩
  | .local _ .vmem, ⟨14, _⟩ => ⟨S512x4096, .bf16⟩
  | .local _ .vmem, ⟨15, _⟩ => ⟨S1x512, .f32⟩
  | .local _ .vmem, ⟨16, _⟩ => ⟨S1x512, .f32⟩
  | .local _ .vmem, ⟨17, _⟩ => ⟨S1024x512, .f32⟩
  | .local _ .vmem, ⟨18, _⟩ => ⟨S1024x512, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![16, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  reducesTo_S8x2048x4096_S_d0_1_2 : S8x2048x4096.ReducesTo [0, 1, 2] S_
  h_S_ : 0 < S_.numel
  shapeCasts_S_S1x1 : S_.ShapeCasts S1x1
  reducesTo_S4096x4096_S4096_d1 : S4096x4096.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S8x2048x4096_S16384x4096 : S8x2048x4096.ShapeCasts S16384x4096
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x4096 : S1x1.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S16384x4096_S8x2048x4096 : S16384x4096.ShapeCasts S8x2048x4096
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S16384x4096.size a
  hwx0_2 : ∀ i : grid0.Coords, EltTy.bits .bf16 = 32 ∨ (Rect.block (s := S16384x4096) S256x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S4096x1.size a
  hwx1_1 : ∀ i : grid1.Coords, EltTy.bits .f32 = 32 ∨ (Rect.block (s := S4096x1) S256x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S4096x4096.size a
  hwx1_2 : ∀ i : grid1.Coords, EltTy.bits .bf16 = 32 ∨ (Rect.block (s := S4096x4096) S256x4096.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S16384x4096.size a
  hwx2_0 : ∀ i : grid2.Coords, EltTy.bits .bf16 = 32 ∨ (Rect.block (s := S16384x4096) S1024x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x4096.size a ≤ S4096x4096.size a
  hwx2_1 : ∀ i : grid2.Coords, EltTy.bits .bf16 = 32 ∨ (Rect.block (s := S4096x4096) S512x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x4096.size a
  hwx2_2 : ∀ i : grid2.Coords, EltTy.bits .f32 = 32 ∨ (Rect.block (s := S1x4096) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S16384x4096.size a
  hwx2_3 : ∀ i : grid2.Coords, EltTy.bits .f32 = 32 ∨ (Rect.block (s := S16384x4096) S1024x512.size (cc2_transform_3 i) (hinb2_3 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v9) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S256x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v11) S1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S512x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x1x4096 : Shape := ⟨3, ![1, 1, 4096]⟩

abbrev nBuf : Space → Nat
  | .hbm => 54
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S8x2048x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x2048x4096, .f32⟩
  | .hbm, ⟨11, _⟩ => ⟨S8x2048x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8x2048x4096, .f32⟩
  | .hbm, ⟨16, _⟩ => ⟨S8x2048x4096, .f32⟩
  | .hbm, ⟨17, _⟩ => ⟨S_, .f32⟩
  | .hbm, ⟨18, _⟩ => ⟨S8x2048x4096, .f32⟩
  | .hbm, ⟨19, _⟩ => ⟨S8x2048x4096, .f32⟩
  | .hbm, ⟨20, _⟩ => ⟨S8x2048x4096, .f32⟩
  | .hbm, ⟨21, _⟩ => ⟨S8x2048x4096, .f32⟩
  | .hbm, ⟨22, _⟩ => ⟨S8x2048x4096, .f32⟩
  | .hbm, ⟨23, _⟩ => ⟨S8x2048x4096, .f32⟩
  | .hbm, ⟨24, _⟩ => ⟨S8x2048x4096, .f32⟩
  | .hbm, ⟨25, _⟩ => ⟨S4096x4096, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S8x2048x4096, .f32⟩
  | .hbm, ⟨51, _⟩ => ⟨S1x1x4096, .f32⟩
  | .hbm, ⟨52, _⟩ => ⟨S8x2048x4096, .f32⟩
  | .hbm, ⟨53, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_cst_3 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_cst_8 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩

abbrev nD : Nat := 1
abbrev τ : Topo := Topo.v7x

variable {F : FTy → Type} [FloatOps F]

class Facts₀ : Prop where
  reducesTo_S8x2048x4096_S_d0_1_2 : S8x2048x4096.ReducesTo [0, 1, 2] S_
  h_S_ : 0 < S_.numel
  bcast_S_S8x2048x4096 : S_.BroadcastsInDim S8x2048x4096 (![] : Fin 0 → Fin S8x2048x4096.rank)
  reducesTo_S4096x4096_S4096_d1 : S4096x4096.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.NamedRun.lean ====
/-
  The kernel program's run with its result NAMED. The program is three pallas_calls between two stretches of host
  operations; after the last stretch every unscoped buffer holds what the fold of those five segments over the launch
  memory leaves in it. The generated frame reads only the three argument buffers out of that final state; read here
  is also the result buffer, at the fold's value there.
-/
import proofs.«112557_j26285199851693_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the value the
    five segments' fold leaves there and the three arguments as launched. -/
theorem run : θ_run defs (onTc (τ := τ) (main (F := F))) ⟨m, fun _ => 0, ρ⟩ (fun r => ∀ c : Dev nD,
      r.2.mem ((c.tc : Thread nD τ).loc main_v14) = W5 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v14 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Named

end
-- ==== Proof.LibFakeQuant.lean ====
/-
  Symmetric int8 fake-quantisation of one number on the extended reals: divide by the scale, clip to [-127, 127],
  round to the nearest integer (ties to even), multiply the scale back. The clipped quotient always lies between the
  two clip bounds, so it is a real number whatever the quotient was; for a real number `c` and any extended real `r`,
  `c + (r - c) = r`. Hence the "straight-through" spelling `c + (round c - c)` of the rounded value is the rounded
  value itself, and the two spellings of the quantiser are one function.
-/
import Idealize.ShloMosaic.PureOps.Ideal

noncomputable section

namespace Cert.FakeQuant

open Idealize.ShloMosaic

/-- The upper clip bound, the float `127.0`. -/
abbrev hi : EReal := Ideal.ofBits .f32 0x42FE0000#32
/-- The lower clip bound, the float `-127.0`. -/
abbrev lo : EReal := Ideal.ofBits .f32 0xC2FE0000#32
/-- The smallest scale allowed, the float nearest `1e-8`. -/
abbrev eps : EReal := Ideal.ofBits .f32 0x322BCC77#32

/-- The float `127.0` denotes the real number 127. -/
theorem hi_eq : hi = ((127 : ℝ) : EReal) := by
  simp [hi, Ideal.ofBits, Ideal.ieee, -EReal.coe_mul]; norm_num

/-- The float `-127.0` denotes the real number -127. -/
theorem lo_eq : lo = ((-127 : ℝ) : EReal) := by
  simp [lo, Ideal.ofBits, Ideal.ieee, -EReal.coe_mul]; norm_num

/-- Clipping to [-127, 127]: the lower bound first, then the upper one. -/
def clip (z : EReal) : EReal := min hi (max lo z)

/-- Rounding to the nearest integer, ties to even. -/
abbrev rnd (z : EReal) : EReal := Ideal.liftRound Ideal.roundHalfEven z

/-- The quantiser: `round (clip (v / s)) * s`. -/
def quant (v s : EReal) : EReal := rnd (clip (Ideal.div v s)) * s

/-- The quantiser in its straight-through spelling: `(c + (round c - c)) * s` with `c = clip (v / s)`. -/
def quantSte (v s : EReal) : EReal :=
  (clip (Ideal.div v s) + (rnd (clip (Ideal.div v s)) - clip (Ideal.div v s))) * s

/-- A clipped value is a real number: it lies between -127 and 127. -/
theorem clip_real (z : EReal) : ∃ c : ℝ, clip z = (c : EReal) := by
  have h1 : clip z ≤ ((127 : ℝ) : EReal) := by
    unfold clip; rw [hi_eq]; exact min_le_left _ _
  have h2 : ((-127 : ℝ) : EReal) ≤ clip z := by
    unfold clip; rw [hi_eq, lo_eq]
    exact le_min (by exact_mod_cast (by norm_num : (-127 : ℝ) ≤ 127)) (le_max_left _ _)
  have ht : clip z ≠ ⊤ := fun e => by rw [e] at h1; exact absurd h1 (not_le.mpr (EReal.coe_lt_top _))
  have hb : clip z ≠ ⊥ := fun e => by rw [e] at h2; exact absurd h2 (not_le.mpr (EReal.bot_lt_coe _))
  exact ⟨(clip z).toReal, (EReal.coe_toReal ht hb).symm⟩

/-- Adding to a real number the difference of anything and that number gives that thing. -/
theorem real_add_sub_cancel (c : ℝ) (r : EReal) : (c : EReal) + (r - (c : EReal)) = r := by
  induction r using EReal.rec with
  | bot => rw [EReal.bot_sub, EReal.add_bot]
  | coe x => norm_cast; ring
  | top => rw [EReal.top_sub_coe, EReal.coe_add_top]

/-- The straight-through spelling is the quantiser. -/
theorem quantSte_eq (v s : EReal) : quantSte v s = quant v s := by
  unfold quantSte quant
  obtain ⟨c, hc⟩ := clip_real (Ideal.div v s)
  rw [hc, real_add_sub_cancel]

end Cert.FakeQuant

end
-- ==== Proof.LibColumns.lean ====
/-
  Column vectors read at an index: a vector of `a` entries viewed as an `a × 1` column, a column
  broadcast along its rows to an `a × b` matrix, a `1 × 1` matrix broadcast to every entry of an
  `a × b` matrix; and a reduction along the rows of an `a × b` matrix read as a sum, or as a running
  maximum, over the row's entries.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, 1]` matrix broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The index of an `[a, b]` matrix over row `p` at position `k` of the reduced axis is `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

end Cert.Columns

end
-- ==== Proof.ActQuant.lean ====
/-
  The activation quantiser (the first pallas_call) read as one function of its two arrays: the [16384, 4096] array of
  activations, cut in 64 blocks of 256 rows, and the [1, 1] array that holds the global scale. Block `t` of the result
  holds, at row `p` and column `k`, the quantised entry (256 t + p, k) of the activations at the scale
  `max (scale, 1e-8)`; the 64 blocks tile the result, so the result array is the activations quantised entry by entry.
-/
import proofs.«112557_j26285199851693_1_alg».proof.Proof.Gen.KernelIdeal.Frame
import proofs.«112557_j26285199851693_1_alg».proof.Proof.LibFakeQuant
import proofs.«112557_j26285199851693_1_alg».proof.Proof.LibColumns
import Idealize.ShloMosaic.Lib.Pipeline.Value
import Idealize.ShloMosaic.Lib.ValueIdx

noncomputable section

namespace Cert.KernelIdeal.ActQuant

open Cert.KernelIdeal Cert.KernelIdeal.Gen Idealize.ShloMosaic Idealize.ShloMosaic.TcCoe Idealize.SL.Sem
open Idealize.ShloMosaic.ValueIdx Cert.FakeQuant
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every entry of an array quantised at one global scale, the scale read from a [1, 1] array and kept above 1e-8. -/
def quantAll (X : S16384x4096.Idx → EReal) (S : S1x1.Idx → EReal) : S16384x4096.Idx → EReal :=
  fun i => quant (X i) (max (S (ix2 (0 : Fin 1) (0 : Fin 1))) eps)

/-- What the body stores, at an entry of its block: the block's entry quantised at the scale. -/
theorem stored_apply (x0 : Vec Ideal S256x4096 .f32) (x1 : Vec Ideal S1x1 .f32) (j : S256x4096.Idx) :
    k0_pay1 x0 x1 j = quant (x0 j) (max (x1 (ix2 (0 : Fin 1) (0 : Fin 1))) eps) := by
  obtain ⟨p, k, rfl⟩ : ∃ (p : Fin 256) (k : Fin 4096), j = ix2 p k := ⟨j 0, j 1, eq_ix2 j⟩
  unfold k0_pay1
  show rnd (min hi (max lo (Ideal.div (shapeCast S256x4096 x0 shapeCasts_S256x4096_S256x4096 (ix2 p k))
      (broadcastTo S256x4096 (maximumf (shapeCast S1x1 x1 shapeCasts_S1x1_S1x1) (broadcast S1x1 eps) : FVec Ideal S1x1 .f32) broadcasts_S1x1_S256x4096 (ix2 p k)))))
    * (broadcastTo S256x4096 (maximumf (shapeCast S1x1 x1 shapeCasts_S1x1_S1x1) (broadcast S1x1 eps) : FVec Ideal S1x1 .f32) broadcasts_S1x1_S256x4096 (ix2 p k)) = _
  rw [shapeCast_self, shapeCast_self, Cert.Columns.broadcastTo_11_ab_apply]
  rfl

/-- The index maps over the grid: the activations' block and the result's block move together, one block of rows per
    point; the scale's block never moves. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the quantised activations. -/
theorem flushed_eq (c : Dev nD) (t : Fin cfg0.N) :
    (dat0 V c).flushed 2 t = ((cfg0.win 2).blk t).view.read (Elt Ideal) (quantAll (V c main_v9) (V c main_v3)) := by
  show (cfg0.win 2).cut (grid0.coords t) ((dat0 V c).after 2 t) = _
  rw [after0_2]
  unfold out0_2
  rw [View.canon_unit_zero hz]
  simp only [View.ld_unit_zero (S := S256x4096) hz, View.ld_unit_zero (S := S1x1) hz]
  obtain ⟨e0, e1, e2, e3, e4, e5⟩ := idx_facts t
  funext j
  show k0_pay1 (iblk0 V c 0 t) (iblk0 V c 1 t) j = quantAll (V c main_v9) (V c main_v3) (((cfg0.win 2).blk t).view.emb j)
  refine (stored_apply (iblk0 V c 0 t) (iblk0 V c 1 t) j).trans ?_
  show quant (V c main_v9 (((cfg0.win 0).blk t).view.emb j)) (max (V c main_v3 (((cfg0.win 1).blk t).view.emb (ix2 (0 : Fin 1) (0 : Fin 1)))) eps)
    = quant (V c main_v9 (((cfg0.win 2).blk t).view.emb j)) (max (V c main_v3 (ix2 (0 : Fin 1) (0 : Fin 1))) eps)
  have h0 : ((cfg0.win 0).blk t).view.emb j = ((cfg0.win 2).blk t).view.emb j := by
    funext a; apply Fin.ext
    match a with
    | ⟨0, _⟩ => show win0_0.index t (0 : Fin 2) * 256 + 1 * (j 0).val = win0_2.index t (0 : Fin 2) * 256 + 1 * (j 0).val; rw [e0, e4]
    | ⟨1, _⟩ => show win0_0.index t (1 : Fin 2) * 4096 + 1 * (j 1).val = win0_2.index t (1 : Fin 2) * 4096 + 1 * (j 1).val; rw [e1, e5]
  have h1 : ((cfg0.win 1).blk t).view.emb (ix2 (0 : Fin 1) (0 : Fin 1)) = ix2 (0 : Fin 1) (0 : Fin 1) := by
    funext a; apply Fin.ext
    match a with
    | ⟨0, _⟩ => show win0_1.index t (0 : Fin 2) * 1 + 1 * 0 = 0; rw [e2]
    | ⟨1, _⟩ => show win0_1.index t (1 : Fin 2) * 1 + 1 * 0 = 0; rw [e3]
  rw [h0, h1]

/-- An index of the result is in point `t`'s block iff each coordinate is in the block's range on its axis. -/
theorem mem_blk (t : Fin cfg0.N) (i : S16384x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v11).slice (win0_2.rect t)).set ↔ _
  rw [View.set_slice_whole, Rect.mem_set_unit]
  exact Iff.rfl

/-- Every row of the result lies in the block of the point numbered by the row's block of 256. -/
theorem cover (i : S16384x4096.Idx) : ∃ t : Fin cfg0.N, (cfg0.win 2).flush t = true ∧ i ∈ ((cfg0.win 2).blk t).view.set := by
  have hi0 : (i 0).val < 16384 := (i 0).isLt
  have hi1 : (i 1).val < 4096 := (i 1).isLt
  have hN : cfg0.N = 64 := N_0
  obtain ⟨t, ht⟩ : ∃ t : Fin cfg0.N, t.val = (i 0).val / 256 := ⟨⟨(i 0).val / 256, by rw [hN]; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

/-- The result array after the call: the activations quantised entry by entry. -/
theorem final (c : Dev nD) : (dat0 V c).arrAt 2 cfg0.N = quantAll (V c main_v9) (V c main_v3) :=
  (dat0 V c).arrAt_eq_of_cover 2 (quantAll (V c main_v9) (V c main_v3)) (fun t _ => flushed_eq V c t) cover

end Cert.KernelIdeal.ActQuant

end
-- ==== Proof.WeightQuant.lean ====
/-
  The weight quantiser (the second pallas_call) read as one function of its two arrays: the [4096, 4096] weight
  matrix, cut in 16 blocks of 256 rows, and the [4096, 1] column of per-row scales, cut the same way. Block `t` of the
  result holds, at row `p` and column `k`, entry (256 t + p, k) of the weights quantised at the scale
  `max (scale of row 256 t + p, 1e-8)`; the 16 blocks tile the result, so every entry of the result is the weight entry
  quantised at its own row's scale.
-/
import proofs.«112557_j26285199851693_1_alg».proof.Proof.Gen.KernelIdeal.Frame
import proofs.«112557_j26285199851693_1_alg».proof.Proof.LibFakeQuant
import proofs.«112557_j26285199851693_1_alg».proof.Proof.LibColumns
import Idealize.ShloMosaic.Lib.Pipeline.Value
import Idealize.ShloMosaic.Lib.ValueIdx

noncomputable section

namespace Cert.KernelIdeal.WeightQuant

open Cert.KernelIdeal Cert.KernelIdeal.Gen Idealize.ShloMosaic Idealize.ShloMosaic.TcCoe Idealize.SL.Sem
open Idealize.ShloMosaic.ValueIdx Cert.FakeQuant
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every entry of a matrix quantised at its row's scale, the scales read from a column and kept above 1e-8. -/
def quantRows (Wt : S4096x4096.Idx → EReal) (S : S4096x1.Idx → EReal) : S4096x4096.Idx → EReal :=
  fun i => quant (Wt i) (max (S (ix2 (i 0 : Fin 4096) (0 : Fin 1))) eps)

/-- What the body stores, at an entry of its block: the block's entry quantised at the scale of its row. -/
theorem stored_apply (x0 : Vec Ideal S256x4096 .f32) (x1 : Vec Ideal S256x1 .f32) (j : S256x4096.Idx) :
    k1_pay1 x0 x1 j = quant (x0 j) (max (x1 (ix2 (j 0 : Fin 256) (0 : Fin 1))) eps) := by
  obtain ⟨p, k, rfl⟩ : ∃ (p : Fin 256) (k : Fin 4096), j = ix2 p k := ⟨j 0, j 1, eq_ix2 j⟩
  unfold k1_pay1
  show rnd (min hi (max lo (Ideal.div (x0 (ix2 p k))
      (broadcastTo S256x4096 (maximumf (shapeCast S256x1 x1 shapeCasts_S256x1_S256x1) (broadcast S256x1 eps) : FVec Ideal S256x1 .f32) broadcasts_S256x1_S256x4096 (ix2 p k)))))
    * (broadcastTo S256x4096 (maximumf (shapeCast S256x1 x1 shapeCasts_S256x1_S256x1) (broadcast S256x1 eps) : FVec Ideal S256x1 .f32) broadcasts_S256x1_S256x4096 (ix2 p k)) = _
  rw [shapeCast_self, Cert.Columns.broadcastTo_a1_ab_apply]
  rfl

/-- The index maps over the grid: the three blocks move together, one block of rows per point. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the quantised weights. -/
theorem flushed_eq (c : Dev nD) (t : Fin cfg1.N) :
    (dat1 V c).flushed 2 t = ((cfg1.win 2).blk t).view.read (Elt Ideal) (quantRows (V c main_arg1) (V c main_v8)) := by
  show (cfg1.win 2).cut (grid1.coords t) ((dat1 V c).after 2 t) = _
  rw [after1_2]
  unfold out1_2
  rw [View.canon_unit_zero hz]
  simp only [View.ld_unit_zero (S := S256x4096) hz, View.ld_unit_zero (S := S256x1) hz]
  obtain ⟨e0, e1, e2, e3, e4, e5⟩ := idx_facts t
  funext j
  show k1_pay1 (iblk1 V c 0 t) (iblk1 V c 1 t) j = quantRows (V c main_arg1) (V c main_v8) (((cfg1.win 2).blk t).view.emb j)
  refine (stored_apply (iblk1 V c 0 t) (iblk1 V c 1 t) j).trans ?_
  show quant (V c main_arg1 (((cfg1.win 0).blk t).view.emb j)) (max (V c main_v8 (((cfg1.win 1).blk t).view.emb (ix2 (j 0 : Fin 256) (0 : Fin 1)))) eps)
    = quant (V c main_arg1 (((cfg1.win 2).blk t).view.emb j)) (max (V c main_v8 (ix2 ((((cfg1.win 2).blk t).view.emb j) 0 : Fin 4096) (0 : Fin 1))) eps)
  have h0 : ((cfg1.win 0).blk t).view.emb j = ((cfg1.win 2).blk t).view.emb j := by
    funext a; apply Fin.ext
    match a with
    | ⟨0, _⟩ => show win1_0.index t (0 : Fin 2) * 256 + 1 * (j 0).val = win1_2.index t (0 : Fin 2) * 256 + 1 * (j 0).val; rw [e0, e4]
    | ⟨1, _⟩ => show win1_0.index t (1 : Fin 2) * 4096 + 1 * (j 1).val = win1_2.index t (1 : Fin 2) * 4096 + 1 * (j 1).val; rw [e1, e5]
  have h1 : ((cfg1.win 1).blk t).view.emb (ix2 (j 0 : Fin 256) (0 : Fin 1)) = ix2 ((((cfg1.win 2).blk t).view.emb j) 0 : Fin 4096) (0 : Fin 1) := by
    funext a; apply Fin.ext
    match a with
    | ⟨0, _⟩ => show win1_1.index t (0 : Fin 2) * 256 + 1 * (j 0).val = win1_2.index t (0 : Fin 2) * 256 + 1 * (j 0).val; rw [e2, e4]
    | ⟨1, _⟩ => show win1_1.index t (1 : Fin 2) * 1 + 1 * 0 = 0; rw [e3]
  rw [h0, h1]
  rfl

/-- An index of the result is in point `t`'s block iff each coordinate is in the block's range on its axis. -/
theorem mem_blk (t : Fin cfg1.N) (i : S4096x4096.Idx) :
    i ∈ ((cfg1.win 2).blk t).view.set ↔ ∀ a : Fin 2, win1_2.index t a * S256x4096.size a ≤ (i a).val ∧ (i a).val < win1_2.index t a * S256x4096.size a + S256x4096.size a := by
  show i ∈ ((View.whole main_v12).slice (win1_2.rect t)).set ↔ _
  rw [View.set_slice_whole, Rect.mem_set_unit]
  exact Iff.rfl

/-- Every row of the result lies in the block of the point numbered by the row's block of 256. -/
theorem cover (i : S4096x4096.Idx) : ∃ t : Fin cfg1.N, (cfg1.win 2).flush t = true ∧ i ∈ ((cfg1.win 2).blk t).view.set := by
  have hi0 : (i 0).val < 4096 := (i 0).isLt
  have hi1 : (i 1).val < 4096 := (i 1).isLt
  have hN : cfg1.N = 16 := N_1
  obtain ⟨t, ht⟩ : ∃ t : Fin cfg1.N, t.val = (i 0).val / 256 := ⟨⟨(i 0).val / 256, by rw [hN]; omega⟩, rfl⟩
  obtain ⟨-, -, -, -, e4, e5⟩ := idx_facts t
  refine ⟨t, flush1_2 t, ?_⟩
  rw [mem_blk]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 4096 ≤ (i 1).val ∧ (i 1).val < win1_2.index t (1 : Fin 2) * 4096 + 4096; omega

/-- The result array after the call: every weight quantised at its row's scale. -/
theorem final (c : Dev nD) : (dat1 V c).arrAt 2 cfg1.N = quantRows (V c main_arg1) (V c main_v8) :=
  (dat1 V c).arrAt_eq_of_cover 2 (quantRows (V c main_arg1) (V c main_v8)) (fun t _ => flushed_eq V c t) cover

end Cert.KernelIdeal.WeightQuant

end
-- ==== Proof.LibMatmulNT.lean ====
/-
  A matrix product with both operands contracted along their second axis, read at an entry: for an `[n, K]` matrix
  and an `[m, K]` matrix (dimension numbers: contracting axes [1] and [1], non-contracting axes [0] and [0], no batch
  axes) accumulated into zero, entry `(p, c)` of the `[n, m]` result is the sum over `k` of
  `lhs (p, k) * rhs (c, k)`, at the exact values. The dimension numbers enter only through four facts about where the
  operand indices come from: each operand's row from the result's row, resp. column, and each operand's column from
  the contraction position.
-/
import Idealize.ShloMosaic.Lib.ValueIdx
import Idealize.ShloMosaic.PureOps.Ideal.Laws

noncomputable section

namespace Cert.PlainDotNT

open Idealize.ShloMosaic Idealize.ShloMosaic.ValueIdx

/-- Rows against rows: for an `[n, K]` matrix and an `[m, K]` matrix, both contracted along their second axis,
    accumulated into zero, entry `(p, c)` is `∑ k, lhs (p, k) * rhs (c, k)`. The dimension numbers enter only through
    four facts about where the operand indices come from. -/
theorem matmul_rows_rows_zero_apply {n K m : ℕ} {φ₁ φ₂ : FTy}
    (D : DotDims ⟨2, ![n, K]⟩ ⟨2, ![m, K]⟩ ⟨2, ![n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![n, K]⟩ φ₁) (rhs : FVec Ideal ⟨2, ![m, K]⟩ φ₂) (p : Fin n) (c : Fin m) :
    matmul D prec lhs rhs (constant ⟨2, ![n, m]⟩ .f32 0x00000000#32) (ix2 p c)
      = ∑ k : Fin K, lhs (ix2 p k) * rhs (ix2 c k) := by
  show FloatOps.matmul D prec lhs rhs (constant ⟨2, ![n, m]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Cert.PlainDotNT

end
-- ==== Proof.LibRowBroadcast.lean ====
/-
  A `1 × b` row spread over the rows of an `a × b` matrix read at an entry: entry `(p, q)` of the spread matrix is
  entry `(0, q)` of the row.
-/
import Idealize.ShloMosaic.Lib.Pipeline.Value
import Idealize.ShloMosaic.Lib.ValueIdx

noncomputable section

namespace Cert.RowBroadcast

open Idealize.ShloMosaic Idealize.ShloMosaic.ValueIdx

/-- A `[1, b]` row broadcast to `[a, b]` reads, at `(p, q)`, the row at `q`: the unit axis is read at 0, the other
    axis at its own coordinate. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

end Cert.RowBroadcast

end
-- ==== Proof.MatmulBias.lean ====
/-
  The matrix product with bias (the third pallas_call) read as one function of its three arrays: the [16384, 4096]
  left matrix cut in 16 blocks of 1024 rows, the [4096, 4096] right matrix cut in 8 blocks of 512 rows, and the
  [1, 4096] bias row cut in 8 blocks of 512 columns. Point (a, b) of the 16 x 8 grid multiplies row block `a` of the
  left matrix against the ROWS of row block `b` of the right one (both contracted along their 4096 columns) and adds
  the bias block `b` to every row; it writes the [1024, 512] tile (a, b) of the result. The 128 tiles fill the
  result, so entry (r, o) of the result is the sum over k of left (r, k) * right (o, k), plus bias (0, o).
-/
import proofs.«112557_j26285199851693_1_alg».proof.Proof.Gen.KernelIdeal.Frame
import proofs.«112557_j26285199851693_1_alg».proof.Proof.LibMatmulNT
import proofs.«112557_j26285199851693_1_alg».proof.Proof.LibRowBroadcast
import Idealize.ShloMosaic.Lib.Pipeline.Value
import Idealize.ShloMosaic.Lib.ValueIdx
import Idealize.ShloMosaic.PureOps.Ideal.Laws

noncomputable section

namespace Cert.KernelIdeal.MatmulBias

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- One entry of such a product: the sum over the 4096 contraction positions of the two operands at the positions
    `ia k` and `ib k`, plus the bias at `ic`. -/
def tile (A : S16384x4096.Idx → EReal) (B : S4096x4096.Idx → EReal) (bias : S1x4096.Idx → EReal)
    (ia : Fin 4096 → S16384x4096.Idx) (ib : Fin 4096 → S4096x4096.Idx) (ic : S1x4096.Idx) : EReal :=
  (∑ k : Fin 4096, A (ia k) * B (ib k)) + bias ic

/-- Rows of `A` against rows of `B`, plus a bias row: entry (r, o) is `∑ k, A (r, k) * B (o, k) + bias (0, o)`. -/
def rowsByRows (A : S16384x4096.Idx → EReal) (B : S4096x4096.Idx → EReal) (bias : S1x4096.Idx → EReal) :
    S16384x4096.Idx → EReal :=
  fun i => tile A B bias (fun k => ix2 (i 0 : Fin 16384) k) (fun k => ix2 (i 1 : Fin 4096) k) (ix2 (0 : Fin 1) (i 1 : Fin 4096))

/-- Where the product's operand indices come from: the left operand's row from the result's row, -/
theorem lhs_row (i : S1024x512.Idx) (q : (dot_S1024x4096_S512x4096_S1024x512_1_1_0_0_n_n).contr.Idx) : (DotDims.lhsIdx dot_S1024x4096_S512x4096_S1024x512_1_1_0_0_n_n i q 0).val = (i 0).val := by
  unfold DotDims.lhsIdx
  rw [dif_neg (show ¬(0 : Fin S1024x4096.rank) ∈ (dot_S1024x4096_S512x4096_S1024x512_1_1_0_0_n_n).lhsBatch by decide),
    dif_pos (show (0 : Fin S1024x4096.rank) ∈ (dot_S1024x4096_S512x4096_S1024x512_1_1_0_0_n_n).lhsNonContracting by decide)]
  rfl
/-- its column from the contraction position; -/
theorem lhs_col (i : S1024x512.Idx) (q : (dot_S1024x4096_S512x4096_S1024x512_1_1_0_0_n_n).contr.Idx) : (DotDims.lhsIdx dot_S1024x4096_S512x4096_S1024x512_1_1_0_0_n_n i q 1).val = (q ⟨0, by decide⟩).val :=
  DotDims.lhsIdx_val_of_single (dot_S1024x4096_S512x4096_S1024x512_1_1_0_0_n_n) rfl i q
/-- the right operand's row from the result's column, -/
theorem rhs_row (i : S1024x512.Idx) (q : (dot_S1024x4096_S512x4096_S1024x512_1_1_0_0_n_n).contr.Idx) : (DotDims.rhsIdx dot_S1024x4096_S512x4096_S1024x512_1_1_0_0_n_n i q 0).val = (i 1).val := by
  unfold DotDims.rhsIdx
  rw [dif_neg (show ¬(0 : Fin S512x4096.rank) ∈ (dot_S1024x4096_S512x4096_S1024x512_1_1_0_0_n_n).rhsBatch by decide),
    dif_pos (show (0 : Fin S512x4096.rank) ∈ (dot_S1024x4096_S512x4096_S1024x512_1_1_0_0_n_n).rhsNonContracting by decide)]
  rfl
/-- and its column from the contraction position. -/
theorem rhs_col (i : S1024x512.Idx) (q : (dot_S1024x4096_S512x4096_S1024x512_1_1_0_0_n_n).contr.Idx) : (DotDims.rhsIdx dot_S1024x4096_S512x4096_S1024x512_1_1_0_0_n_n i q 1).val = (q ⟨0, by decide⟩).val :=
  DotDims.rhsIdx_val_of_single (dot_S1024x4096_S512x4096_S1024x512_1_1_0_0_n_n) rfl i q

/-- What the body stores, at an entry of its tile: the row of the left block against the row of the right block,
    plus the bias block's entry of that column. -/
theorem stored_apply (x0 : Vec Ideal S1024x4096 .bf16) (x1 : Vec Ideal S512x4096 .bf16) (x2 : Vec Ideal S1x512 .f32) (j : S1024x512.Idx) :
    k2_pay1 x0 x1 x2 j = (∑ k : Fin 4096, x0 (ix2 (j 0 : Fin 1024) k) * x1 (ix2 (j 1 : Fin 512) k)) + x2 (ix2 (0 : Fin 1) (j 1 : Fin 512)) := by
  obtain ⟨p, q, rfl⟩ : ∃ (p : Fin 1024) (q : Fin 512), j = ix2 p q := ⟨j 0, j 1, eq_ix2 j⟩
  unfold k2_pay1
  show (matmul (F := Ideal) dot_S1024x4096_S512x4096_S1024x512_1_1_0_0_n_n none (shapeCast S1024x4096 x0 shapeCasts_S1024x4096_S1024x4096)
        (shapeCast S512x4096 x1 shapeCasts_S512x4096_S512x4096) (constant S1024x512 .f32 0x00000000#32) (ix2 p q) : EReal)
      + broadcastTo S1024x512 (shapeCast S1x512 x2 shapeCasts_S1x512_S1x512) broadcasts_S1x512_S1024x512 (ix2 p q) = _
  rw [shapeCast_self, shapeCast_self, shapeCast_self, Cert.RowBroadcast.broadcastTo_1b_ab_apply,
    Cert.PlainDotNT.matmul_rows_rows_zero_apply dot_S1024x4096_S512x4096_S1024x512_1_1_0_0_n_n none rfl rfl lhs_row lhs_col rhs_row rhs_col]
  try rfl

/-- The index maps over the grid: point `t` is (t / 8, t % 8); the left block follows the first coordinate, the right
    block and the bias block the second, the result's tile both. -/
theorem idx_facts : ∀ t : Fin cfg2.N, win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = 0 ∧ win2_2.index t (1 : Fin 2) = t.val % 8
    ∧ win2_3.index t (0 : Fin 2) = t.val / 8 ∧ win2_3.index t (1 : Fin 2) = t.val % 8 :=
  (by decide +kernel : ∀ t : Fin grid2.N, _)

/-- What point `t` writes back is tile `t` of the product with bias. -/
theorem flushed_eq (c : Dev nD) (t : Fin cfg2.N) :
    (dat2 V c).flushed 3 t = ((cfg2.win 3).blk t).view.read (Elt Ideal) (rowsByRows (V c main_v11) (V c main_v12) (V c main_v10)) := by
  show (cfg2.win 3).cut (grid2.coords t) ((dat2 V c).after 3 t) = _
  rw [after2_3]
  unfold out2_3
  rw [View.canon_unit_zero hz]
  simp only [View.ld_unit_zero (S := S1024x4096) hz, View.ld_unit_zero (S := S512x4096) hz, View.ld_unit_zero (S := S1x512) hz]
  obtain ⟨e0, e1, e2, e3, e4, e5, e6, e7⟩ := idx_facts t
  funext j
  show k2_pay1 (iblk2 V c 0 t) (iblk2 V c 1 t) (iblk2 V c 2 t) j = rowsByRows (V c main_v11) (V c main_v12) (V c main_v10) (((cfg2.win 3).blk t).view.emb j)
  refine (stored_apply (iblk2 V c 0 t) (iblk2 V c 1 t) (iblk2 V c 2 t) j).trans ?_
  show tile (V c main_v11) (V c main_v12) (V c main_v10)
      (fun k => ((cfg2.win 0).blk t).view.emb (ix2 (j 0 : Fin 1024) k))
      (fun k => ((cfg2.win 1).blk t).view.emb (ix2 (j 1 : Fin 512) k))
      (((cfg2.win 2).blk t).view.emb (ix2 (0 : Fin 1) (j 1 : Fin 512)))
    = tile (V c main_v11) (V c main_v12) (V c main_v10)
      (fun k => ix2 ((((cfg2.win 3).blk t).view.emb j) 0 : Fin 16384) k)
      (fun k => ix2 ((((cfg2.win 3).blk t).view.emb j) 1 : Fin 4096) k)
      (ix2 (0 : Fin 1) ((((cfg2.win 3).blk t).view.emb j) 1 : Fin 4096))
  have h0 : (fun k : Fin 4096 => ((cfg2.win 0).blk t).view.emb (ix2 (j 0 : Fin 1024) k)) = fun k => ix2 ((((cfg2.win 3).blk t).view.emb j) 0 : Fin 16384) k := funext fun k => by
    funext a; apply Fin.ext
    match a with
    | ⟨0, _⟩ => show win2_0.index t (0 : Fin 2) * 1024 + 1 * (j 0).val = win2_3.index t (0 : Fin 2) * 1024 + 1 * (j 0).val; rw [e0, e6]
    | ⟨1, _⟩ => show win2_0.index t (1 : Fin 2) * 4096 + 1 * k.val = k.val; rw [e1]; omega
  have h1 : (fun k : Fin 4096 => ((cfg2.win 1).blk t).view.emb (ix2 (j 1 : Fin 512) k)) = fun k => ix2 ((((cfg2.win 3).blk t).view.emb j) 1 : Fin 4096) k := funext fun k => by
    funext a; apply Fin.ext
    match a with
    | ⟨0, _⟩ => show win2_1.index t (0 : Fin 2) * 512 + 1 * (j 1).val = win2_3.index t (1 : Fin 2) * 512 + 1 * (j 1).val; rw [e2, e7]
    | ⟨1, _⟩ => show win2_1.index t (1 : Fin 2) * 4096 + 1 * k.val = k.val; rw [e3]; omega
  have h2 : ((cfg2.win 2).blk t).view.emb (ix2 (0 : Fin 1) (j 1 : Fin 512)) = ix2 (0 : Fin 1) ((((cfg2.win 3).blk t).view.emb j) 1 : Fin 4096) := by
    funext a; apply Fin.ext
    match a with
    | ⟨0, _⟩ => show win2_2.index t (0 : Fin 2) * 1 + 1 * 0 = 0; rw [e4]
    | ⟨1, _⟩ => show win2_2.index t (1 : Fin 2) * 512 + 1 * (j 1).val = win2_3.index t (1 : Fin 2) * 512 + 1 * (j 1).val; rw [e5, e7]
  rw [h0, h1, h2]
  try rfl

/-- An index of the result is in point `t`'s tile iff each coordinate is in the tile's range on its axis. -/
theorem mem_blk (t : Fin cfg2.N) (i : S16384x4096.Idx) :
    i ∈ ((cfg2.win 3).blk t).view.set ↔ ∀ a : Fin 2, win2_3.index t a * S1024x512.size a ≤ (i a).val ∧ (i a).val < win2_3.index t a * S1024x512.size a + S1024x512.size a := by
  show i ∈ ((View.whole main_v13).slice (win2_3.rect t)).set ↔ _
  rw [View.set_slice_whole, Rect.mem_set_unit]
  exact Iff.rfl

/-- Every entry of the result lies in the tile of the point (row / 1024, column / 512). -/
theorem cover (i : S16384x4096.Idx) : ∃ t : Fin cfg2.N, (cfg2.win 3).flush t = true ∧ i ∈ ((cfg2.win 3).blk t).view.set := by
  have hi0 : (i 0).val < 16384 := (i 0).isLt
  have hi1 : (i 1).val < 4096 := (i 1).isLt
  have hN : cfg2.N = 128 := N_2
  obtain ⟨t, ht⟩ : ∃ t : Fin cfg2.N, t.val = (i 0).val / 1024 * 8 + (i 1).val / 512 :=
    ⟨⟨(i 0).val / 1024 * 8 + (i 1).val / 512, by rw [hN]; omega⟩, rfl⟩
  obtain ⟨-, -, -, -, -, -, e6, e7⟩ := idx_facts t
  refine ⟨t, flush2_3 t, ?_⟩
  rw [mem_blk]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 512 ≤ (i 1).val ∧ (i 1).val < win2_3.index t (1 : Fin 2) * 512 + 512; omega

/-- The result array after the call: rows of the left matrix against rows of the right one, plus the bias row. -/
theorem final (c : Dev nD) : (dat2 V c).arrAt 3 cfg2.N = rowsByRows (V c main_v11) (V c main_v12) (V c main_v10) :=
  (dat2 V c).arrAt_eq_of_cover 3 (rowsByRows (V c main_v11) (V c main_v12) (V c main_v10)) (fun t _ => flushed_eq V c t) cover

end Cert.KernelIdeal.MatmulBias

end
-- ==== Proof.KernelValue.lean ====
/-
  The kernel program's result as one function of its three arguments. Reading the five segments' fold backwards
  from the result buffer: the last host operation views the [16384, 4096] product as [8, 2048, 4096]; the product
  is the third call's (rows of the quantised activations against rows of the quantised weights, plus the bias row);
  the quantised activations are the first call's result, the quantised weights the second call's, and no later
  segment touches either; the operands of those two calls are what the first stretch of host operations left:
  the activations viewed as [16384, 4096], the global scale `max |x| / 127` viewed as [1, 1], the per-row scales
  `max_k |w(o, k)| / 127` as a [4096, 1] column, and the bias viewed as a [1, 4096] row.
-/
import proofs.«112557_j26285199851693_1_alg».proof.Proof.Gen.KernelIdeal.Frame
import proofs.«112557_j26285199851693_1_alg».proof.Proof.ActQuant
import proofs.«112557_j26285199851693_1_alg».proof.Proof.WeightQuant
import proofs.«112557_j26285199851693_1_alg».proof.Proof.MatmulBias
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.StableHlo
open Cert.KernelIdeal.ActQuant Cert.KernelIdeal.WeightQuant Cert.KernelIdeal.MatmulBias

variable (m : (ℓ : Loc nD τ sig) → Buf (Elt Ideal) ℓ) (ρ : Dev nD → PrngReg)

/-- The activations' scale before its floor: the largest magnitude of the whole array over 127. -/
def scaleA (x : S8x2048x4096.Idx → EReal) : S_.Idx → EReal :=
  Host.divf (F := Ideal) (φ := .f32) (Host.reduce (FloatOps.maximumf (F := Ideal) (φ := .f32)) (Host.absf (F := Ideal) (φ := .f32) x) (constant (F := Ideal) S_ .f32 0xFF800000#32) reducesTo_S8x2048x4096_S_d0_1_2 h_S_)
    (constant (F := Ideal) S_ .f32 0x42FE0000#32)

/-- The weights' scales before their floor: per row, the largest magnitude of the row over 127, as a column. -/
def scaleW (w : S4096x4096.Idx → EReal) : S4096x1.Idx → EReal :=
  Host.divf (F := Ideal) (φ := .f32)
    (broadcastInDim S4096x1 ![0] bcast_S4096_S4096x1_0 (Host.reduce (FloatOps.maximumf (F := Ideal) (φ := .f32)) (Host.absf (F := Ideal) (φ := .f32) w) (constant (F := Ideal) S_ .f32 0xFF800000#32) reducesTo_S4096x4096_S4096_d1 h_S_))
    (broadcastInDim S4096x1 ![] bcast_S_S4096x1 (constant (F := Ideal) S_ .f32 0x42FE0000#32))

/-- The whole program's result from its arguments. -/
def result (x : S8x2048x4096.Idx → EReal) (w : S4096x4096.Idx → EReal) (b : S4096.Idx → EReal) : S8x2048x4096.Idx → EReal :=
  shapeCast S8x2048x4096
    (rowsByRows (quantAll (shapeCast S16384x4096 x shapeCasts_S8x2048x4096_S16384x4096) (shapeCast S1x1 (scaleA x) shapeCasts_S_S1x1))
      (quantRows w (scaleW w)) (shapeCast S1x4096 b shapeCasts_S4096_S1x4096))
    shapeCasts_S16384x4096_S8x2048x4096

/-! What the first stretch of host operations leaves in the buffers the calls read. -/

theorem entry_rows (c : Dev nD) : (V1 m ρ c main_v9 : S16384x4096.Idx → EReal)
    = shapeCast S16384x4096 (m ((c.tc : Thread nD τ).loc main_arg0)) shapeCasts_S8x2048x4096_S16384x4096 := by
  show StableHlo.after hostOps0 (W0 m ρ c) (Proc.devRef .tc main_v9) = _
  after_results
  try rfl

theorem entry_scaleA (c : Dev nD) : (V1 m ρ c main_v3 : S1x1.Idx → EReal)
    = shapeCast S1x1 (scaleA (m ((c.tc : Thread nD τ).loc main_arg0))) shapeCasts_S_S1x1 := by
  show StableHlo.after hostOps0 (W0 m ρ c) (Proc.devRef .tc main_v3) = _
  after_results
  try rfl

theorem entry_scaleW (c : Dev nD) : (V1 m ρ c main_v8 : S4096x1.Idx → EReal)
    = scaleW (m ((c.tc : Thread nD τ).loc main_arg1)) := by
  show StableHlo.after hostOps0 (W0 m ρ c) (Proc.devRef .tc main_v8) = _
  after_results
  try rfl

theorem entry_bias (c : Dev nD) : (V1 m ρ c main_v10 : S1x4096.Idx → EReal)
    = shapeCast S1x4096 (m ((c.tc : Thread nD τ).loc main_arg2)) shapeCasts_S4096_S1x4096 := by
  show StableHlo.after hostOps0 (W0 m ρ c) (Proc.devRef .tc main_v10) = _
  after_results
  try rfl

theorem entry_weights (c : Dev nD) : (V1 m ρ c main_arg1 : S4096x4096.Idx → EReal) = m ((c.tc : Thread nD τ).loc main_arg1) := by
  show StableHlo.after hostOps0 (W0 m ρ c) (Proc.devRef .tc main_arg1) = _
  after_results
  try rfl

/-- The result buffer after the last segment is `result` of the three arguments. -/
theorem result_eq (c : Dev nD) : (W5 m ρ c (Proc.devRef .tc main_v14) : S8x2048x4096.Idx → EReal)
    = result (m ((c.tc : Thread nD τ).loc main_arg0)) (m ((c.tc : Thread nD τ).loc main_arg1)) (m ((c.tc : Thread nD τ).loc main_arg2)) := by
  have h5 : (W5 m ρ c (Proc.devRef .tc main_v14) : S8x2048x4096.Idx → EReal)
      = shapeCast S8x2048x4096 (W4 m ρ c (Proc.devRef .tc main_v13) : S16384x4096.Idx → EReal) shapeCasts_S16384x4096_S8x2048x4096 := by
    show StableHlo.after hostOps3 (W4 m ρ c) (Proc.devRef .tc main_v14) = _
    after_results
    try rfl
  have h4 : (W4 m ρ c (Proc.devRef .tc main_v13) : S16384x4096.Idx → EReal)
      = rowsByRows (V3 m ρ c main_v11) (V3 m ρ c main_v12) (V3 m ρ c main_v10) :=
    (W4_arr m ρ c 3).trans (MatmulBias.final (V3 m ρ) c)
  have a11 : (V3 m ρ c main_v11 : S16384x4096.Idx → EReal) = quantAll (V1 m ρ c main_v9) (V1 m ρ c main_v3) :=
    (W3_of_ne m ρ c main_v11 (by decide)).trans ((W2_arr m ρ c 2).trans (ActQuant.final (V1 m ρ) c))
  have a12 : (V3 m ρ c main_v12 : S4096x4096.Idx → EReal) = quantRows (V2 m ρ c main_arg1) (V2 m ρ c main_v8) :=
    (W3_arr m ρ c 2).trans (WeightQuant.final (V2 m ρ) c)
  have a10 : (V3 m ρ c main_v10 : S1x4096.Idx → EReal) = V1 m ρ c main_v10 :=
    (W3_of_ne m ρ c main_v10 (by decide)).trans (W2_of_ne m ρ c main_v10 (by decide))
  have b1 : (V2 m ρ c main_arg1 : S4096x4096.Idx → EReal) = V1 m ρ c main_arg1 := W2_of_ne m ρ c main_arg1 (by decide)
  have b8 : (V2 m ρ c main_v8 : S4096x1.Idx → EReal) = V1 m ρ c main_v8 := W2_of_ne m ρ c main_v8 (by decide)
  rw [h5, h4, a11, a12, a10, b1, b8, entry_rows, entry_scaleA, entry_scaleW, entry_bias, entry_weights]
  rfl

end Cert.KernelIdeal.Whole

end
-- ==== Proof.LibRank3.lean ====
/-
  Rank-three arrays read at an index: the two leading axes of an `[a, b, c]` array flattened to one
  axis of `a * b` rows and back (row `p * b + q` of the flat array is entry `(p, q)` of the leading
  axes); a unit axis added in the middle, at the end or twice in front; a broadcast along the middle
  axis, along the last axis and along both leading axes; and the index that a reduction along the
  middle axis puts back.
-/
import Idealize.ShloMosaic.Lib.Pipeline.Value
import Idealize.ShloMosaic.Lib.ValueIdx
import Idealize.ShloMosaic.PureOps.Reduce

noncomputable section

namespace Cert.Rank3

open Idealize.ShloMosaic Idealize.ShloMosaic.ValueIdx

variable {α : Type}

/-- Row `p * b + q` lies among the `n = a * b` flat rows. -/
theorem flat_lt {a b n : ℕ} (hn : n = a * b) (p : Fin a) (q : Fin b) : p.val * b + q.val < n := by
  have hp := p.isLt
  have hq := q.isLt
  have : p.val * b + q.val < (p.val + 1) * b := by rw [Nat.add_mul, Nat.one_mul]; omega
  exact hn ▸ Nat.lt_of_lt_of_le this (Nat.mul_le_mul_right b hp)

/-- The flat row of entry `(p, q)` of the leading axes. -/
abbrev flat {a b n : ℕ} (hn : n = a * b) (p : Fin a) (q : Fin b) : Fin n := ⟨p.val * b + q.val, flat_lt hn p q⟩

/-- An `[a, b, c]` array flattened to `[a * b, c]` reads, at row `p * b + q` and column `r`, the entry `(p, q, r)`. -/
theorem shapeCast_abc_nc_apply {a b c n : ℕ} (hn : n = a * b) (x : (⟨3, ![a, b, c]⟩ : Shape).Idx → α)
    (h : (⟨3, ![a, b, c]⟩ : Shape).ShapeCasts ⟨2, ![n, c]⟩) (p : Fin a) (q : Fin b) (r : Fin c) :
    shapeCast ⟨2, ![n, c]⟩ x h (ix2 (flat hn p q) r) = x (ix3 p q r) :=
  shapeCast_apply x h _ _ (by
    rw [Shape.rowMajor_val_three, Shape.rowMajor_val_two]
    rfl)

/-- An `[a * b, c]` array viewed as `[a, b, c]` reads, at `(p, q, r)`, row `p * b + q` at column `r`. -/
theorem shapeCast_nc_abc_apply {a b c n : ℕ} (hn : n = a * b) (x : (⟨2, ![n, c]⟩ : Shape).Idx → α)
    (h : (⟨2, ![n, c]⟩ : Shape).ShapeCasts ⟨3, ![a, b, c]⟩) (p : Fin a) (q : Fin b) (r : Fin c) :
    shapeCast ⟨3, ![a, b, c]⟩ x h (ix3 p q r) = x (ix2 (flat hn p q) r) :=
  shapeCast_apply x h _ _ (by
    rw [Shape.rowMajor_val_three, Shape.rowMajor_val_two]
    rfl)

/-- An `[a, c]` array with a unit axis put in the middle reads, at `(p, u, r)`, the entry `(p, r)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- An `[a, b]` array with a unit axis put at the end reads, at `(p, q, u)`, the entry `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- A `[c]` vector with two unit axes put in front reads, at `(u, v, r)`, the entry `r`. -/
theorem shapeCast_c_11c_apply {c : ℕ} (x : (⟨1, ![c]⟩ : Shape).Idx → α)
    (h : (⟨1, ![c]⟩ : Shape).ShapeCasts ⟨3, ![1, 1, c]⟩) (u v : Fin 1) (r : Fin c) :
    shapeCast ⟨3, ![1, 1, c]⟩ x h (ix3 u v r) = x (ix1 r) :=
  shapeCast_apply x h _ _ (by
    have hu : u.val = 0 := by omega
    have hv : v.val = 0 := by omega
    rw [Shape.rowMajor_val_three, Shape.rowMajor_val_one]
    show r.val = (u.val * 1 + v.val) * c + r.val
    rw [hu, hv]
    simp)

/-- An `[a, 1, c]` array broadcast along its middle axis reads, at `(p, q, r)`, the entry `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- An `[a, b, 1]` array broadcast along its last axis reads, at `(p, q, r)`, the entry `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `[1, 1, c]` array broadcast along both leading axes reads, at `(p, q, r)`, the entry `(0, 0, r)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- Over entry `(p, r)` of the result, position `k` of a reduction along the middle axis is `(p, k, r)`. -/
theorem lift_mid {a b c : ℕ} (h : Shape.Reduces ⟨3, ![a, b, c]⟩ [1] ⟨2, ![a, c]⟩) (p : Fin a) (r : Fin c) (k : Fin b) :
    h.lift (ix2 p r) k = ix3 p k r :=
  funext fun ax => Fin.ext (by match ax with | ⟨0, _⟩ => rfl | ⟨1, _⟩ => rfl | ⟨2, _⟩ => rfl)

end Cert.Rank3

end
-- ==== Proof.LibVecRow.lean ====
/-
  A vector of `b` entries stored as a `1 × b` row (a reshape that adds a leading unit axis) read at an entry:
  entry `(u, q)` of the row is entry `q` of the vector.
-/
import Idealize.ShloMosaic.Lib.Pipeline.Value
import Idealize.ShloMosaic.Lib.ValueIdx

noncomputable section

namespace Cert.VecRow

open Idealize.ShloMosaic Idealize.ShloMosaic.ValueIdx

/-- A `[b]` vector reshaped to a `[1, b]` row reads, at `(u, q)`, the vector at `q`: both have row-major position `q`. -/
theorem row_of_vec_apply {α : Type} {b : ℕ} (h : (⟨1, ![b]⟩ : Shape).ShapeCasts ⟨2, ![1, b]⟩) (x : (⟨1, ![b]⟩ : Shape).Idx → α)
    (u : Fin 1) (q : Fin b) : shapeCast ⟨2, ![1, b]⟩ x h (ix2 u q) = x (ix1 q) := by
  refine shapeCast_apply x h (ix2 u q) (ix1 q) ?_
  rw [Shape.rowMajor_val_one, Shape.rowMajor_val_two]
  show q.val = u.val * b + q.val
  have := u.isLt
  have hu : u.val = 0 := by omega
  rw [hu]; omega

end Cert.VecRow

end
-- ==== Proof.LibScalarMatrix.lean ====
/-
  A scalar (an array with no axes) viewed as a `1 × 1` matrix read at an entry: the matrix's one entry is the scalar.
-/
import Idealize.ShloMosaic.Lib.Pipeline.Value
import Idealize.ShloMosaic.Lib.ValueIdx

noncomputable section

namespace Cert.ScalarMatrix

open Idealize.ShloMosaic Idealize.ShloMosaic.ValueIdx

/-- A scalar reshaped to a `[1, 1]` matrix reads, at its one entry, the scalar: the scalar has one index only. -/
theorem scalar_as_matrix {α : Type} (s : (⟨0, ![]⟩ : Shape).Idx → α) (h : (⟨0, ![]⟩ : Shape).ShapeCasts ⟨2, ![1, 1]⟩)
    (j : (⟨2, ![1, 1]⟩ : Shape).Idx) : shapeCast ⟨2, ![1, 1]⟩ s h j = s ix0 := by
  unfold shapeCast
  exact congrArg s (funext fun a => a.elim0)

end Cert.ScalarMatrix

end
-- ==== Proof.KernelAt.lean ====
/-
  The kernel program's result read at an index. Entry (p, r, o) of the [8, 2048, 4096] view is entry
  (2048 p + r, o) of the product: the sum over k of the quantised activation (p, r, k), at the global scale
  `max (max|x| / 127, 1e-8)`, times the quantised weight (o, k), at row `o`'s scale
  `max (max_k |w(o, k)| / 127, 1e-8)`, plus bias `o`.
-/
import proofs.«112557_j26285199851693_1_alg».proof.Proof.KernelValue
import proofs.«112557_j26285199851693_1_alg».proof.Proof.LibRank3
import proofs.«112557_j26285199851693_1_alg».proof.Proof.LibVecRow
import proofs.«112557_j26285199851693_1_alg».proof.Proof.LibScalarMatrix

noncomputable section

namespace Cert.KernelIdeal.AtIndex

open Cert.KernelIdeal Cert.KernelIdeal.Gen Idealize.ShloMosaic Idealize.ShloMosaic.TcCoe Idealize.SL.Sem
open Idealize.ShloMosaic.ValueIdx Cert.FakeQuant
open Cert.KernelIdeal.ActQuant Cert.KernelIdeal.WeightQuant Cert.KernelIdeal.MatmulBias Cert.KernelIdeal.Whole

/-- The kernel program's result at entry (p, r, o). -/
theorem result_at (x : S8x2048x4096.Idx → EReal) (w : S4096x4096.Idx → EReal) (b : S4096.Idx → EReal)
    (p : Fin 8) (r : Fin 2048) (o : Fin 4096) :
    result x w b (ix3 p r o)
      = (∑ k : Fin 4096, quant (x (ix3 p r k)) (max (scaleA x ix0) eps)
            * quant (w (ix2 o k)) (max (scaleW w (ix2 o (0 : Fin 1))) eps))
        + b (ix1 o) := by
  unfold result
  rw [Cert.Rank3.shapeCast_nc_abc_apply (n := 16384) (by norm_num : 16384 = 8 * 2048)]
  show (∑ k : Fin 4096,
        quant (shapeCast S16384x4096 x shapeCasts_S8x2048x4096_S16384x4096 (ix2 (Cert.Rank3.flat (by norm_num : 16384 = 8 * 2048) p r) k))
            (max (shapeCast S1x1 (scaleA x) shapeCasts_S_S1x1 (ix2 (0 : Fin 1) (0 : Fin 1))) eps)
          * quant (w (ix2 o k)) (max (scaleW w (ix2 o (0 : Fin 1))) eps))
      + shapeCast S1x4096 b shapeCasts_S4096_S1x4096 (ix2 (0 : Fin 1) o) = _
  rw [Cert.VecRow.row_of_vec_apply, Cert.ScalarMatrix.scalar_as_matrix]
  refine congrArg (· + b (ix1 o)) (Finset.sum_congr rfl fun k _ => ?_)
  rw [Cert.Rank3.shapeCast_abc_nc_apply]

end Cert.KernelIdeal.AtIndex

end
-- ==== Proof.RefValue.lean ====
/-
  The reference program's result read at an index. Entry (p, r, o) is the sum over k of the quantised activation
  (p, r, k) times the quantised weight (o, k), plus bias o; the reference spells each quantised value in the
  straight-through form `(c + (round c - c)) * s` with `c` the clipped quotient by the scale `s`, the activations'
  scale `max (max|x| / 127, 1e-8)` and row `o`'s weight scale `max (max_k |w(o, k)| / 127, 1e-8)`.
-/
import proofs.«112557_j26285199851693_1_alg».proof.Proof.Gen.ReferenceIdeal.Read
import proofs.«112557_j26285199851693_1_alg».proof.Proof.LibFakeQuant
import Idealize.ShloMosaic.Lib.ValueIdx

noncomputable section

namespace Cert.ReferenceIdeal.AtIndex

open Cert.ReferenceIdeal Cert.ReferenceIdeal.Gen Cert.ReferenceIdeal.Read Idealize.ShloMosaic Idealize.ShloMosaic.TcCoe Idealize.SL.Sem
open Idealize.ShloMosaic.ValueIdx Cert.FakeQuant

/-- A quantised activation: the entry in the straight-through spelling at the global scale. -/
theorem act_at (x : S8x2048x4096.Idx → EReal) (i : S8x2048x4096.Idx) :
    val_main_v11 (F := Ideal) x i = quantSte (x i) (max (val_main_v2 (F := Ideal) x ix0) eps) := by
  simp only [val_main_v11_apply, val_main_v9_apply, val_main_v8_apply, val_main_v7_apply, val_main_v6_apply,
    val_main_call0_v4_apply, val_main_call0_v3_apply, val_main_cst_3_apply, val_main_call0_v2_apply,
    val_main_call0_v1_apply, val_main_call0_v0_apply, val_main_cst_2_apply, val_main_v5_apply, val_main_v4_apply,
    val_main_v10_apply, val_main_v3_apply, val_main_cst_1_apply]
  rfl

/-- A quantised weight: the entry in the straight-through spelling at its row's scale. -/
theorem weight_at (w : S4096x4096.Idx → EReal) (o k : Fin 4096) :
    val_main_v26 (F := Ideal) w (ix2 o k) = quantSte (w (ix2 o k)) (max (val_main_v16 (F := Ideal) w (ix2 o (0 : Fin 1))) eps) := by
  have e19 : idx_main_v19 (ix2 o k) = ix2 o (0 : Fin 1) := funext fun a => Fin.ext (by
    match a with | ⟨0, _⟩ => rfl | ⟨1, _⟩ => rfl)
  have e25 : idx_main_v25 (ix2 o k) = ix2 o (0 : Fin 1) := funext fun a => Fin.ext (by
    match a with | ⟨0, _⟩ => rfl | ⟨1, _⟩ => rfl)
  simp only [val_main_v26_apply, val_main_v24_apply, val_main_v23_apply, val_main_v22_apply, val_main_v21_apply,
    val_main_call2_v4_apply, val_main_call2_v3_apply, val_main_cst_8_apply, val_main_call2_v2_apply,
    val_main_call2_v1_apply, val_main_call2_v0_apply, val_main_cst_7_apply, val_main_v20_apply, val_main_v19_apply,
    val_main_v25_apply, e19, e25, val_main_v18_apply, val_main_v17_apply, val_main_cst_6_apply]
  rfl

/-- The reference's result at entry (p, r, o). -/
theorem result_at (x : S8x2048x4096.Idx → EReal) (w : S4096x4096.Idx → EReal) (b : S4096.Idx → EReal)
    (p : Fin 8) (r : Fin 2048) (o : Fin 4096) :
    val_main_v30 (F := Ideal) x w b (ix3 p r o)
      = (∑ k : Fin 4096, quantSte (x (ix3 p r k)) (max (val_main_v2 (F := Ideal) x ix0) eps)
            * quantSte (w (ix2 o k)) (max (val_main_v16 (F := Ideal) w (ix2 o (0 : Fin 1))) eps))
        + b (ix1 o) := by
  rw [val_main_v30_apply, val_main_v27_apply, val_main_v29_apply, val_main_v28_apply]
  have eb : idx_main_v28 (idx_main_v29 (ix3 p r o)) = ix1 o := funext fun a => Fin.ext (by
    match a with | ⟨0, _⟩ => rfl)
  rw [eb]
  show (∑ k : Fin 4096, _) + b (ix1 o) = _
  refine congrArg (· + b (ix1 o)) (Finset.sum_congr rfl fun k _ => ?_)
  have el : lidx_main_v27 (ix3 p r o) k = ix3 p r k := funext fun a => Fin.ext (by
    match a with | ⟨0, _⟩ => rfl | ⟨1, _⟩ => rfl | ⟨2, _⟩ => rfl)
  have er : ridx_main_v27 (ix3 p r o) k = ix2 o k := funext fun a => Fin.ext (by
    match a with | ⟨0, _⟩ => rfl | ⟨1, _⟩ => rfl)
  rw [el, er, act_at, weight_at]

end Cert.ReferenceIdeal.AtIndex

end
-- ==== Proof.Bridge.lean ====
/-
  The two programs compute one function. At entry (p, r, o) both results are the sum over k of a quantised
  activation times a quantised weight, plus a bias; the two host computations of the scales are the same terms; and the
  reference's straight-through spelling of a quantised value is the kernel's rounded one, because the clipped quotient
  is a real number.
-/
import proofs.«112557_j26285199851693_1_alg».proof.Proof.KernelAt
import proofs.«112557_j26285199851693_1_alg».proof.Proof.RefValue

noncomputable section

namespace Cert.Bridge

open Idealize.ShloMosaic Idealize.ShloMosaic.ValueIdx Cert.FakeQuant

/-- Both programs compute the activations' scale by the same host operations. -/
theorem scaleA_eq (x : Cert.KernelIdeal.S8x2048x4096.Idx → EReal) :
    Cert.KernelIdeal.Whole.scaleA x = Cert.ReferenceIdeal.Read.val_main_v2 (F := Ideal) x := rfl

/-- Both programs compute the weights' per-row scales by the same host operations. -/
theorem scaleW_eq (w : Cert.KernelIdeal.S4096x4096.Idx → EReal) :
    Cert.KernelIdeal.Whole.scaleW w = Cert.ReferenceIdeal.Read.val_main_v16 (F := Ideal) w := rfl

/-- The reference's result is the kernel program's, as arrays. -/
theorem result_eq (x : Cert.KernelIdeal.S8x2048x4096.Idx → EReal) (w : Cert.KernelIdeal.S4096x4096.Idx → EReal)
    (b : Cert.KernelIdeal.S4096.Idx → EReal) :
    Cert.ReferenceIdeal.Read.val_main_v30 (F := Ideal) x w b = Cert.KernelIdeal.Whole.result x w b := by
  funext i
  obtain ⟨p, r, o, rfl⟩ : ∃ (p : Fin 8) (r : Fin 2048) (o : Fin 4096), i = ix3 p r o := ⟨i 0, i 1, i 2, eq_ix3 i⟩
  rw [Cert.ReferenceIdeal.AtIndex.result_at, Cert.KernelIdeal.AtIndex.result_at]
  simp only [quantSte_eq, scaleA_eq, scaleW_eq]

end Cert.Bridge

end
-- ==== Proof.lean ====
/-
  A linear layer with symmetric int8 fake-quantisation of its activations (one global scale) and of its weights (one
  scale per output row), as three pallas_calls — quantise the activations, quantise the weights, multiply rows against
  rows and add the bias — against the same computation written with jnp, whose quantiser rounds in the
  straight-through form `c + (round c - c)`.

  On the extended reals the two programs agree exactly. The scales are computed by the same host operations on both
  sides. A quantised value is `round (clip (v / s)) * s`; the clipped quotient lies in [-127, 127], hence is a real
  number, and for a real `c` the straight-through form `c + (round c - c)` is `round c`. Storing the quantised arrays as
  bf16 changes nothing at this reading, and a product of a 1024-row block against a 512-row block over the full
  contraction is the same sum as the reference's one contraction. No property of the inputs is used.

  The kernel's frames are the generated ones; the reference's frame is its generated run with the result dropped;
  the idealisation rewrote nothing, so there is nothing to preserve.
-/
import proofs.«112557_j26285199851693_1_alg».proof.Defs
import proofs.«112557_j26285199851693_1_alg».proof.Proof.Gen.Kernel
import proofs.«112557_j26285199851693_1_alg».proof.Proof.Gen.Kernel.Skeleton
import proofs.«112557_j26285199851693_1_alg».proof.Proof.Gen.Kernel.Launch
import proofs.«112557_j26285199851693_1_alg».proof.Proof.Gen.Kernel.Points
import proofs.«112557_j26285199851693_1_alg».proof.Proof.Gen.Kernel.Frame
import proofs.«112557_j26285199851693_1_alg».proof.Proof.Gen.KernelIdeal
import proofs.«112557_j26285199851693_1_alg».proof.Proof.Gen.KernelIdeal.Skeleton
import proofs.«112557_j26285199851693_1_alg».proof.Proof.Gen.KernelIdeal.Launch
import proofs.«112557_j26285199851693_1_alg».proof.Proof.Gen.KernelIdeal.Points
import proofs.«112557_j26285199851693_1_alg».proof.Proof.Gen.KernelIdeal.Frame
import proofs.«112557_j26285199851693_1_alg».proof.Proof.Gen.ReferenceIdeal
import proofs.«112557_j26285199851693_1_alg».proof.Proof.Gen.ReferenceIdeal.Run
import proofs.«112557_j26285199851693_1_alg».proof.Proof.Gen.ReferenceIdeal.Read
import proofs.«112557_j26285199851693_1_alg».proof.Proof.Gen.Pre_finite_inputs
import proofs.«112557_j26285199851693_1_alg».proof.Proof.NamedRun
import proofs.«112557_j26285199851693_1_alg».proof.Proof.KernelValue
import proofs.«112557_j26285199851693_1_alg».proof.Proof.Bridge
import Idealize.ShloMosaic.Adequacy
import Idealize.ShloMosaic.Init

noncomputable section

namespace Cert.Proof

open Idealize.ShloMosaic Idealize.ShloMosaic.TcCoe Idealize.SL.Sem

/-- The kernel program at the word level runs and leaves its arguments alone. -/
theorem frame_kernel : Cert.frame_Kernel :=
  fun m ρ _ => Cert.Kernel.Gen.frame m ρ

/-- So does its reading on the extended reals. -/
theorem frame_kernelIdeal : Cert.frame_KernelIdeal :=
  fun m ρ _ => Cert.KernelIdeal.Gen.frame m ρ

/-- The reference is host operations only: its run, with the result forgotten. -/
theorem frame_reference : Cert.frame_ReferenceIdeal :=
  fun m ρ _ => (θ_run Cert.ReferenceIdeal.defs _ _).mono (fun _ h c => (h c).2) (Cert.ReferenceIdeal.Value.run (F := Ideal) m ρ)

/-- From memories that agree on the three arguments both programs end with the same array: the kernel program's run
    names its result buffer, which is `result` of the arguments; the reference's run ends at its composed term, which is
    the same function. -/
theorem algebraic : Cert.algebraic_KernelIdeal_ReferenceIdeal := by
  intro m ρ m' ρ' _ hagree
  refine ⟨fun c => Cert.KernelIdeal.Whole.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Whole.result_eq m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v30_eq, (hagree c).1, (hagree c).2.1, (hagree c).2.2]
    exact Cert.Bridge.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
